-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S100000 : Shape := ⟨1, ![100000]⟩
abbrev S_ : Shape := ⟨0, ![]⟩
abbrev S1x3200000 : Shape := ⟨2, ![1, 3200000]⟩
abbrev S3200000 : Shape := ⟨1, ![3200000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S100000x256 .f32) (main_arg1 : IVec S2x3200000 32) (main_arg2 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : IVec S1x3200000 32 := (extractStridedSlice S1x3200000 ![0, 0] · slices_S2x3200000_S1x3200000_0_0) main_arg1
  let main_v5 : IVec S3200000 32 := shapeCast S3200000 main_v4 shapeCasts_S1x3200000_S3200000
  let main_c_0 : IVec S_ 32 := constantI S_ 32 0#32
  let main_v6 : IVec S3200000 32 := broadcastInDim S3200000 ![] bcast_S_S3200000 main_c_0
  let main_v7 : IVec S3200000 1 := cmpi .sge main_v5 main_v6
  let main_c_1 : IVec S_ 1 := constantI S_ 1 1#1
  let main_v8 : IVec S_ 1 := (fun x v => Host.reduce IntOp.andi x v reducesTo_S3200000_S_d0 h_S_) main_v7 main_c_1
  let main_v9 : IVec S_ 1 := andi main_v3 main_v8
  main_v9
-- ==== Kernel.lean ====
abbrev S100000x256 : Shape := ⟨2, ![100000, 256]⟩
abbrev S2x3200000 : Shape := ⟨2, ![2, 3200000]⟩
abbrev S100000 : Shape := ⟨1, ![100000]⟩
abbrev S119 : Shape := ⟨1, ![119]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S5000x256 : Shape := ⟨2, ![5000, 256]⟩
abbrev S5000x1 : Shape := ⟨2, ![5000, 1]⟩

abbrev nBuf : Space → Nat
  | .hbm => 54
  | .vmem => 6
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S100000, .i32⟩
  | .hbm, ⟨3, _⟩ => ⟨S119, .f32⟩
  | .hbm, ⟨4, _⟩ => ⟨S1x3200000, .i32⟩
  | .hbm, ⟨5, _⟩ => ⟨S3200000, .i32⟩
  | .hbm, ⟨6, _⟩ => ⟨S_, .f32⟩
  | .hbm, ⟨7, _⟩ => ⟨S3200000, .f32⟩
  | .hbm, ⟨8, _⟩ => ⟨S_, .f32⟩
  | .hbm, ⟨9, _⟩ => ⟨S100000, .f32⟩
  | .hbm, ⟨10, _⟩ => ⟨S3200000x1, .i32⟩
  | .hbm, ⟨11, _⟩ => ⟨S100000, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S100000, .i32⟩
  | .hbm, ⟨16, _⟩ => ⟨S100000, .i32⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S_, .i32⟩
  | .hbm, ⟨21, _⟩ => ⟨S100000, .i32⟩
  | .hbm, ⟨22, _⟩ => ⟨S100000, .i1⟩
  | .hbm, ⟨23, _⟩ => ⟨S_, .i32⟩
  | .hbm, ⟨24, _⟩ => ⟨S100000, .i32⟩
  | .hbm, ⟨25, _⟩ => ⟨S100000, .i32⟩
  | .hbm, ⟨26, _⟩ => ⟨S100000, .i32⟩
  | .hbm, ⟨27, _⟩ => ⟨S100000x1, .i32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .i1⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S_, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S100000x256, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S5000x256, .f32⟩
  | .local _ .vmem, ⟨5, _⟩ => ⟨S5000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_c_3 : Ref sig .tc := ⟨.hbm, 20, rfl⟩
abbrev main_v7 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_cst_7 : Ref sig .tc := ⟨.hbm, 35, rfl⟩
abbrev main_v18 : Ref sig .tc := ⟨.hbm, 36, rfl⟩
abbrev main_cst_8 : Ref sig .tc := ⟨.hbm, 37, rfl⟩
abbrev main_v19 : Ref sig .tc := ⟨.hbm, 38, rfl⟩
abbrev main_cst_9 : Ref sig .tc := ⟨.hbm, 39, rfl⟩
abbrev main_v20 : Ref sig .tc := ⟨.hbm, 40, rfl⟩
abbrev main_v21 : Ref sig .tc := ⟨.hbm, 41, rfl⟩
abbrev main_cst_10 : Ref sig .tc := ⟨.hbm, 42, rfl⟩
abbrev main_v22 : Ref sig .tc := ⟨.hbm, 43, rfl⟩
abbrev main_v23 : Ref sig .tc := ⟨.hbm, 44, rfl⟩
abbrev main_cst_11 : Ref sig .tc := ⟨.hbm, 45, rfl⟩
abbrev main_v24 : Ref sig .tc := ⟨.hbm, 46, rfl⟩
abbrev main_v25 : Ref sig .tc := ⟨.hbm, 47, rfl⟩
abbrev main_cst_12 : Ref sig .tc := ⟨.hbm, 48, rfl⟩
abbrev main_call1_v0 : Ref sig .tc := ⟨.hbm, 49, rfl⟩
abbrev main_call1_v1 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  reducesTo_S100000_S_d0 : S100000.ReducesTo [0] S_
  h_S_ : 0 < S_.numel
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  scatter_S100000_S3200000x1_S3200000_n_0_0_1_wf : ScatterDims.WF S100000 S3200000x1 S3200000 [] [0] [0] 1
  gather_S119_S100000x1_S100000_n_0_n_n_0_1_1_wf : GatherDims.WF S119 S100000x1 S100000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S119_S100000x1_S100000_n_0_n_n_0_1_1 : GatherDims S119 S100000x1 S100000 where
  offsetDims := []
  collapsedSliceDims := [0]
  operandBatchingDims := []
  startIndicesBatchingDims := []
  startIndexMap := [0]
  indexVectorDim := 1
  sliceSizes := ![1]
  wf := gather_S119_S100000x1_S100000_n_0_n_n_0_1_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S100000 : Shape := ⟨1, ![100000]⟩
abbrev S119 : Shape := ⟨1, ![119]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩

abbrev nBuf : Space → Nat
  | .hbm => 62
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S100000, .i32⟩
  | .hbm, ⟨3, _⟩ => ⟨S119, .f32⟩
  | .hbm, ⟨4, _⟩ => ⟨S1x3200000, .i32⟩
  | .hbm, ⟨5, _⟩ => ⟨S3200000, .i32⟩
  | .hbm, ⟨6, _⟩ => ⟨S_, .f32⟩
  | .hbm, ⟨7, _⟩ => ⟨S100000, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S_, .f32⟩
  | .hbm, ⟨17, _⟩ => ⟨S3200000, .f32⟩
  | .hbm, ⟨18, _⟩ => ⟨S100000, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i32⟩
  | .hbm, ⟨33, _⟩ => ⟨S100000, .i32⟩
  | .hbm, ⟨34, _⟩ => ⟨S100000x1, .i32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S100000, .f32⟩
  | .hbm, ⟨48, _⟩ => ⟨S100000, .i1⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S_, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x256, .f32⟩
  | .hbm, ⟨61, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_c_4 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_c_5 : Ref sig .tc := ⟨.hbm, 27, rfl⟩
abbrev main_v12 : Ref sig .tc := ⟨.hbm, 28, rfl⟩
abbrev main_v13 : Ref sig .tc := ⟨.hbm, 29, rfl⟩
abbrev main_c_6 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_v21 : Ref sig .tc := ⟨.hbm, 39, rfl⟩
abbrev main_cst_8 : Ref sig .tc := ⟨.hbm, 40, rfl⟩
abbrev main_v22 : Ref sig .tc := ⟨.hbm, 41, rfl⟩
abbrev main_cst_9 : Ref sig .tc := ⟨.hbm, 42, rfl⟩
abbrev main_v23 : Ref sig .tc := ⟨.hbm, 43, rfl⟩
abbrev main_cst_10 : Ref sig .tc := ⟨.hbm, 44, rfl⟩
abbrev main_v24 : Ref sig .tc := ⟨.hbm, 45, rfl⟩
abbrev main_cst_11 : Ref sig .tc := ⟨.hbm, 46, rfl⟩
abbrev main_v25 : Ref sig .tc := ⟨.hbm, 47, rfl⟩
abbrev main_v26 : Ref sig .tc := ⟨.hbm, 48, rfl⟩
abbrev main_cst_12 : Ref sig .tc := ⟨.hbm, 49, rfl⟩
abbrev main_v27 : Ref sig .tc := ⟨.hbm, 50, rfl⟩
abbrev main_v28 : Ref sig .tc := ⟨.hbm, 51, rfl⟩
abbrev main_cst_13 : Ref sig .tc := ⟨.hbm, 52, rfl⟩
abbrev main_v29 : Ref sig .tc := ⟨.hbm, 53, rfl⟩
abbrev main_v30 : Ref sig .tc := ⟨.hbm, 54, rfl⟩
abbrev main_cst_14 : Ref sig .tc := ⟨.hbm, 55, rfl⟩
abbrev main_call1_v0 : Ref sig .tc := ⟨.hbm, 56, rfl⟩
abbrev main_call1_v1 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  reducesTo_S100000_S_d0 : S100000.ReducesTo [0] S_
  h_S_ : 0 < S_.numel
  bcast_S100000x1_S100000x256_0_1 : S100000x1.BroadcastsInDim S100000x256 (![0, 1] : Fin 2 → Fin S100000x256.rank)
  scatter_S100000_S3200000x1_S3200000_n_0_0_1_wf : ScatterDims.WF S100000 S3200000x1 S3200000 [] [0] [0] 1
  gather_S119_S100000x1_S100000_n_0_n_n_0_1_1_wf : GatherDims.WF S119 S100000x1 S100000 [] [0] [] [0] [] 1 ![1]

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S119_S100000x1_S100000_n_0_n_n_0_1_1 : GatherDims S119 S100000x1 S100000 where
  offsetDims := []
  collapsedSliceDims := [0]
  operandBatchingDims := []
  startIndicesBatchingDims := []
  startIndexMap := [0]
  indexVectorDim := 1
  sliceSizes := ![1]
  wf := gather_S119_S100000x1_S100000_n_0_n_n_0_1_1_wf

class Facts : Prop extends Facts₀ where

variable [Facts]
-- ==== Proof.Valence.lean ====
/-
  The arithmetic both programs run on the host before the feature matrix is rescaled, written once.

  A molecule has 100000 atoms and 3200000 directed bonds.  Each bond names its source atom; an atom's bond count is
  the number of bonds that name it (a bond whose source is no atom, an index outside [0, 100000), counts for nobody).
  Each atom has an allowed valence, read from a table of 119 entries at its type clamped into [0, 118].  The excess
  is max(count - allowed, 0).  From the excess come the two results: the loss, mean(excess) * 0.05, and the per-atom
  scale, 1 - 0.1 * excess where the excess is positive and 1 elsewhere, by which the atom's feature row is multiplied.

  The two programs differ in one place only: one of them first re-reads a NEGATIVE source index as counted from the
  end (index + 100000).  On source indices that are all nonnegative this changes nothing (`fromEnd_of_nonneg`).
-/
import proofs.«118195_j61048665145612_2_alg».proof.KernelIdeal
import Idealize.ShloMosaic.Lib.Affine

noncomputable section

namespace Cert.KernelIdeal.Valence

open Cert.KernelIdeal Idealize.ShloMosaic
open Facts₀ Facts

variable {F : FTy → Type} [FloatOps F] [Facts]

/-- Row 0 of the bond list: the source atom of every bond. -/
def sources (e : IVec S2x3200000 32) : IVec S3200000 32 :=
  shapeCast S3200000 (extractStridedSlice S1x3200000 ![0, 0] e slices_S2x3200000_S1x3200000_0_0) shapeCasts_S1x3200000_S3200000

/-- A negative index re-read as counted from the end of the 100000 atoms; a nonnegative one kept. -/
def fromEnd (src : IVec S3200000 32) : IVec S3200000 32 :=
  select (cmpi .slt src (broadcastInDim S3200000 ![] bcast_S_S3200000 (constantI S_ 32 0#32)))
    (addi src (broadcastInDim S3200000 ![] bcast_S_S3200000 (constantI S_ 32 100000#32))) src

/-- Where no index is negative, re-reading negative indices from the end changes nothing. -/
theorem fromEnd_of_nonneg (src : IVec S3200000 32) (h : ∀ e, 0 ≤ (src e).toInt) : fromEnd src = src := by
  funext e
  show Scalar.select (IntOp.cmpi .slt (src e) 0#32) _ (src e) = src e
  have hc : ¬ IntOp.cmpi .slt (src e) 0#32 = 1#1 := by
    rw [IntOp.cmpi_slt, show (0#32 : BitVec 32).toInt = 0 from by decide]
    exact not_lt.2 (h e)
  exact if_neg hc

/-- Each atom's bond count: one added at its source for every bond, starting from zero. -/
def bondCount (src : IVec S3200000 32) : FVec F S100000 .f32 :=
  Host.scatterAdd scatter_S100000_S3200000x1_S3200000_n_0_0_1
    (broadcastInDim S100000 ![] bcast_S_S100000 (constant S_ .f32 0x00000000#32))
    (broadcastInDim S3200000x1 ![0] bcast_S3200000_S3200000x1_0 src)
    (broadcastInDim S3200000 ![] bcast_S_S3200000 (constant S_ .f32 0x3F800000#32))

/-- The atom types clamped into the table's range [0, 118]. -/
def clampedType (a : IVec S100000 32) : IVec S100000 32 :=
  minsi (broadcastInDim S100000 ![] bcast_S_S100000 (id (constantI S_ 32 118#32)))
    (maxsi (broadcastInDim S100000 ![] bcast_S_S100000 (id (constantI S_ 32 0#32))) a)

/-- Each atom's allowed valence: the table's entry at its clamped type (the lookup's own from-the-end rule for a
    negative position is spelt out by both programs alike, and never applies to a clamped type). -/
def allowed (a : IVec S100000 32) : FVec F S100000 .f32 :=
  Host.gather gather_S119_S100000x1_S100000_n_0_n_n_0_1_1 (fun i => FloatOps.ofBits .f32 (lit0 (S119.rowMajor i)))
    (broadcastInDim S100000x1 ![0] bcast_S100000_S100000x1_0
      (select (cmpi .slt (clampedType a) (broadcastInDim S100000 ![] bcast_S_S100000 (constantI S_ 32 0#32)))
        (addi (clampedType a) (broadcastInDim S100000 ![] bcast_S_S100000 (constantI S_ 32 119#32))) (clampedType a)))

/-- By how much each atom's bond count exceeds its allowed valence, and zero where it does not. -/
def excess (src : IVec S3200000 32) (a : IVec S100000 32) : FVec F S100000 .f32 :=
  maximumf (subf (bondCount src) (allowed a)) (broadcastInDim S100000 ![] bcast_S_S100000 (constant S_ .f32 0x00000000#32))

/-- The constraint loss: the mean excess over the 100000 atoms, times the weight 0.05. -/
def loss (v : FVec F S100000 .f32) : FVec F S_ .f32 :=
  mulf (Host.divf (Host.reduceAdd v (constant S_ .f32 0x00000000#32) reducesTo_S100000_S_d0 h_S_) (constant S_ .f32 0x47C35000#32))
    (constant S_ .f32 0x3D4CCCCD#32)

/-- The factor each atom's features are multiplied by: 1 - 0.1 * excess where the excess is positive, 1 elsewhere. -/
def rowScale (v : FVec F S100000 .f32) : FVec F S100000 .f32 :=
  select (cmpf .ogt v (broadcastInDim S100000 ![] bcast_S_S100000 (constant S_ .f32 0x00000000#32)))
    (subf (broadcastInDim S100000 ![] bcast_S_S100000 (constant S_ .f32 0x3F800000#32))
      (mulf v (broadcastInDim S100000 ![] bcast_S_S100000 (constant S_ .f32 0x3DCCCCCD#32))))
    (broadcastInDim S100000 ![] bcast_S_S100000 (id (constant S_ .f32 0x3F800000#32)))

end Cert.KernelIdeal.Valence

end
-- ==== Proof.KernelValue.lean ====
/-
  What the kernel program leaves in its two results.

  The feature matrix h is 100000 rows by 256 columns, and the pipelined kernel walks it in 20 blocks of 5000 whole
  rows.  At each block it multiplies every row by that row's entry of a one-column matrix q (the per-atom scale,
  computed by the host operations before the launch).  So entry (r, c) of the output is h(r, c) * q(r, 0), whichever
  block row r falls in (block r / 5000): the blocks are restrictions of this one function and together they cover
  the matrix.  The second result, the loss, is one of the host operations' values and the launch leaves it alone.
  Both q and the loss are the host arithmetic of `Valence` applied to the bond sources as given.
-/
import proofs.«118195_j61048665145612_2_alg».proof.Proof.Gen.KernelIdeal.Value
import proofs.«118195_j61048665145612_2_alg».proof.Proof.Valence
import Idealize.ShloMosaic.Lib.StableHlo.Run

noncomputable section

namespace Cert.KernelIdeal.Scaled

open Cert.KernelIdeal Cert.KernelIdeal.Gen Cert.KernelIdeal.Valence Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The whole-matrix function -/

/-- The one entry of a one-column matrix in the row of matrix index `i`. -/
abbrev rowEntry (i : S100000x256.Idx) : S100000x1.Idx := fun a => match a with
  | ⟨0, _⟩ => ⟨(i 0).val, by have hi0 : (i 0).val < 100000 := (i 0).isLt; show (i 0).val < 100000; omega⟩
  | ⟨1, _⟩ => ⟨0, by show 0 < 1; omega⟩

/-- Every row of `h` multiplied by that row's entry of the column `q`. -/
abbrev rowsTimes (h : S100000x256.Idx → Elt F .f32) (q : S100000x1.Idx → Elt F .f32) : S100000x256.Idx → Elt F .f32 :=
  fun i => FloatOps.mulf (h i) (q (rowEntry i))

theorem zeros : (![0, 0] : Fin 2 → Nat) = fun _ => 0 := funext fun a => by fin_cases a <;> rfl

/-- What the body leaves in the output block, entry by entry: the entry of the first block times the entry of the
    second block's one column in the same row. -/
theorem block_apply (x0 : Vec F S5000x256 .f32) (x1 : Vec F S5000x1 .f32) (y : S5000x256.Idx) :
    out0_2 x0 x1 y = FloatOps.mulf (x0 (Value.ix2_0 y)) (x1 (Value.ix2_1 y)) := by
  unfold out0_2
  rw [Value.canon2_eq]
  show FloatOps.mulf (View.ld x0 r0_0 (Value.ix2_0 y)) (View.ld x1 r0_1 (Value.ix2_1 y)) = _
  rw [View.ld_unit_zero (S := S5000x256) zeros, View.ld_unit_zero (S := S5000x1) zeros]

/-- The three windows move together: at grid point `t` each is at block row `t`, and the only block column is 0. -/
theorem index_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 19 :=
  (by decide +kernel : ∀ t : Fin grid0.N, _)

/-- Every one of the 20 block rows is some grid point's. -/
theorem index_onto : ∀ q0 : Fin 20, ∃ t : Fin cfg0.N, win0_2.index t = ![q0.val, 0] :=
  (by decide +kernel : ∀ q0 : Fin 20, ∃ t : Fin grid0.N, win0_2.index t = ![q0.val, 0])

/-- What grid point `t` writes back is block `t` of the whole-matrix function of the arrays as the launch finds them. -/
theorem flushed_eq (c : Dev nD) (t : Fin cfg0.N) :
    (dats m 0 c).flushed 2 t = ((cfg0.win 2).blk t).view.read (Elt F) (rowsTimes (V m c main_arg0) (V m c main_v27)) := by
  rw [Value.flushed2]
  obtain ⟨e0, e1, e2, e3, e4, e5⟩ := index_facts t
  funext j
  show out0_2 (iblk m c 0 t) (iblk m c 1 t) j = _
  rw [block_apply]
  show FloatOps.mulf (V m c main_arg0 (((cfg0.win 0).blk t).view.emb (Value.ix2_0 j))) (V m c main_v27 (((cfg0.win 1).blk t).view.emb (Value.ix2_1 j)))
    = FloatOps.mulf (V m c main_arg0 (((cfg0.win 2).blk t).view.emb j)) (V m c main_v27 (rowEntry (((cfg0.win 2).blk t).view.emb j)))
  have h0 : ((cfg0.win 0).blk t).view.emb (Value.ix2_0 j) = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * (j 1).val = win0_2.index t (1 : Fin 2) * 256 + 1 * (j 1).val; omega
  have h1 : ((cfg0.win 1).blk t).view.emb (Value.ix2_1 j) = rowEntry (((cfg0.win 2).blk t).view.emb j) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  rw [h0, h1]

/-- An index of the matrix is in point `t`'s block iff each coordinate is in the block's range on its axis. -/
theorem mem_block (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v28).slice (win0_2.rect t)).set ↔ _
  rw [View.set_slice_whole, Rect.mem_set_unit]
  exact Iff.rfl

/-- Every entry of the matrix is in the block of the point at block row (its row / 5000). -/
theorem covered (i : S100000x256.Idx) : ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The output matrix after the run: every row of `h` times its entry of the column the launch found. -/
theorem final (c : Dev nD) :
    (dats m 0 c).arrAt 2 cfg0.N = rowsTimes (m ((c : Thread nD τ).loc main_arg0)) (V m c main_v27) := by
  rw [← V_main_arg0 m c]
  exact (dats m 0 c).arrAt_eq_of_cover 2 (rowsTimes (V m c main_arg0) (V m c main_v27)) (fun t _ => flushed_eq m c t) covered

/-! ## The host operations before the launch -/

/-- The column the launch finds: the per-atom scale of `Valence`, of the bond sources as given, as one column. -/
theorem column_eq (c : Dev nD) :
    (V m c main_v27 : S100000x1.Idx → Elt F .f32)
      = shapeCast S100000x1 (rowScale (excess (F := F) (sources (m ((c : Thread nD τ).loc main_arg1))) (m ((c : Thread nD τ).loc main_arg2))))
          Facts₀.shapeCasts_S100000_S100000x1 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- The loss the launch finds, and leaves: the loss of `Valence` of the same excess. -/
theorem loss_eq (c : Dev nD) :
    (V m c main_v19 : S_.Idx → Elt F .f32)
      = loss (excess (F := F) (sources (m ((c : Thread nD τ).loc main_arg1))) (m ((c : Thread nD τ).loc main_arg2))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-! ## The run -/

/-- Every weakly fair execution of the kernel program ends with the output matrix at the rows of `h` times the
    scale column, the loss at the host's value, and the three arguments as given. -/
theorem run : θ_run defs (onTc (τ := τ) (main (F := F))) ⟨m, fun _ => 0, ρ⟩ fun r => ∀ c : Dev nD,
      r.2.mem ((c : Thread nD τ).loc main_v28)
        = rowsTimes (m ((c : Thread nD τ).loc main_arg0))
            (shapeCast S100000x1 (rowScale (excess (F := F) (sources (m ((c : Thread nD τ).loc main_arg1))) (m ((c : Thread nD τ).loc main_arg2))))
              Facts₀.shapeCasts_S100000_S100000x1)
      ∧ r.2.mem ((c : Thread nD τ).loc main_v19)
        = loss (excess (F := F) (sources (m ((c : Thread nD τ).loc main_arg1))) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by rw [Value.post2 m r h c, final m c, column_eq m c],
      ((h c).2 main_v19 (Pipeline.mem_restRefs_of main_v19 (by decide) (by decide))).trans (loss_eq m c),
      Value.kept_main_arg0 m r h c,
      Value.kept_main_arg1 m r h c,
      Value.kept_main_arg2 m r h c⟩)
    (run_main m ρ)

end Cert.KernelIdeal.Scaled

end
-- ==== Proof.Bridge.lean ====
/-
  The two ways of multiplying each row of the feature matrix by its atom's scale are one.

  The kernel program makes the 100000 scales a one-column matrix and reads, for entry (r, c), the column's entry in
  row r.  The reference spreads the scales over a one-column matrix and then over all 256 columns and multiplies
  entry by entry.  Either way entry (r, c) is h(r, c) times the scale of atom r.
-/
import proofs.«118195_j61048665145612_2_alg».proof.Proof.KernelValue
import Idealize.ShloMosaic.Lib.Pipeline.Value
import Idealize.ShloMosaic.Lib.ValueIdx

noncomputable section

namespace Cert.KernelIdeal.Scaled

open Cert.KernelIdeal Idealize.ShloMosaic Idealize.ShloMosaic.ValueIdx

variable {α : Type}

/-- The scales as a one-column matrix, read at the row of matrix entry (r, c): the scale of atom r. -/
theorem column_apply (p : S100000.Idx → α) (hc : S100000.ShapeCasts S100000x1) (r : Fin 100000) (c : Fin 256) :
    shapeCast S100000x1 p hc (rowEntry (ix2 r c)) = p (ix1 r) :=
  shapeCast_apply p hc _ _ (by
    rw [Shape.rowMajor_val_two, Shape.rowMajor_val_one]
    show r.val = r.val * 1 + 0
    omega)

/-- The scales spread over one column and then over the 256 columns, read at (r, c): the scale of atom r. -/
theorem spread_apply (p : S100000.Idx → α) (hb1 : S100000.BroadcastsInDim S100000x1 (![0] : Fin 1 → Fin S100000x1.rank))
    (hb2 : S100000x1.BroadcastsInDim S100000x256 (![0, 1] : Fin 2 → Fin S100000x256.rank)) (r : Fin 100000) (c : Fin 256) :
    broadcastInDim S100000x256 ![0, 1] hb2 (broadcastInDim S100000x1 ![0] hb1 p) (ix2 r c) = p (ix1 r) := by
  refine (broadcastInDim_apply _ hb2 _ (ix2 r c) (ix2 r (0 : Fin 1)) fun a => ?_).trans ?_
  · match a with
    | ⟨0, _⟩ => show r.val = if (100000 : Nat) = 1 then 0 else r.val; rw [if_neg (by decide)]
    | ⟨1, _⟩ => show 0 = if (1 : Nat) = 1 then 0 else c.val; rw [if_pos rfl]
  · refine broadcastInDim_apply _ hb1 _ (ix2 r (0 : Fin 1)) (ix1 r) fun a => ?_
    match a with
    | ⟨0, _⟩ => show r.val = if (100000 : Nat) = 1 then 0 else r.val; rw [if_neg (by decide)]

variable {F : FTy → Type} [FloatOps F]

/-- Rows times the scale column is the matrix times the scales spread over the columns. -/
theorem rowsTimes_column (h : FVec F S100000x256 .f32) (p : FVec F S100000 .f32) (hc : S100000.ShapeCasts S100000x1)
    (hb1 : S100000.BroadcastsInDim S100000x1 (![0] : Fin 1 → Fin S100000x1.rank))
    (hb2 : S100000x1.BroadcastsInDim S100000x256 (![0, 1] : Fin 2 → Fin S100000x256.rank)) :
    rowsTimes h (shapeCast S100000x1 p hc) = mulf h (broadcastInDim S100000x256 ![0, 1] hb2 (broadcastInDim S100000x1 ![0] hb1 p)) := by
  funext i
  obtain ⟨r, c, rfl⟩ : ∃ (r : Fin 100000) (c : Fin 256), i = ix2 r c := ⟨i 0, i 1, eq_ix2 i⟩
  show FloatOps.mulf (h (ix2 r c)) (shapeCast S100000x1 p hc (rowEntry (ix2 r c)))
    = FloatOps.mulf (h (ix2 r c)) (broadcastInDim S100000x256 ![0, 1] hb2 (broadcastInDim S100000x1 ![0] hb1 p) (ix2 r c))
  rw [column_apply, spread_apply]

end Cert.KernelIdeal.Scaled

end
-- ==== Proof.RefRun.lean ====
/-
  What the reference program leaves in its two results.

  The reference is one straight line of 59 host operations (the two helper functions it calls, the clamp of the atom
  types and the final choice between the reduced scale and 1, are run in place).  Read back, the line computes the
  host arithmetic of `Valence` — of the bond sources with negative indices re-read from the end — and then
  multiplies every row of the feature matrix by its atom's scale, spread over the 256 columns.
-/
import proofs.«118195_j61048665145612_2_alg».proof.ReferenceIdeal
import proofs.«118195_j61048665145612_2_alg».proof.Proof.Gen.ReferenceIdeal
import proofs.«118195_j61048665145612_2_alg».proof.Proof.Valence
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo
open Cert.KernelIdeal.Valence

variable {F : FTy → Type} [FloatOps F]

/-- The program's 59 operations, in order; the operations of a called function stand where it is called, over the
    call's own buffers. -/
abbrev ops : List (HloOp τ sig (Elt F)) :=
  [ nullary main_cst (fun i => FloatOps.ofBits .f32 (lit0 (S119.rowMajor i))),
    unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    nullary main_cst_0 (constant S_ .f32 0x00000000#32),
    unary main_cst_0 main_v2 (broadcastInDim S100000 ![] bcast_S_S100000 : (⟨S_, .f32⟩ : BufTy).Contents (Elt F) → (⟨S100000, .f32⟩ : BufTy).Contents (Elt F)),
    nullary main_c (constantI S_ 32 0#32),
    unary main_c main_v3 (broadcastInDim S3200000 ![] bcast_S_S3200000 : (⟨S_, .i32⟩ : BufTy).Contents (Elt F) → (⟨S3200000, .i32⟩ : BufTy).Contents (Elt F)),
    binary main_v1 main_v3 main_v4 (cmpi .slt : (⟨S3200000, .i32⟩ : BufTy).Contents (Elt F) → (⟨S3200000, .i32⟩ : BufTy).Contents (Elt F) → (⟨S3200000, .i1⟩ : BufTy).Contents (Elt F)),
    nullary main_c_1 (constantI S_ 32 100000#32),
    unary main_c_1 main_v5 (broadcastInDim S3200000 ![] bcast_S_S3200000 : (⟨S_, .i32⟩ : BufTy).Contents (Elt F) → (⟨S3200000, .i32⟩ : BufTy).Contents (Elt F)),
    binary main_v1 main_v5 main_v6 (addi : (⟨S3200000, .i32⟩ : BufTy).Contents (Elt F) → (⟨S3200000, .i32⟩ : BufTy).Contents (Elt F) → (⟨S3200000, .i32⟩ : BufTy).Contents (Elt F)),
    ternary main_v4 main_v6 main_v1 main_v7 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v7 main_v8 (broadcastInDim S3200000x1 ![0] bcast_S3200000_S3200000x1_0 : (⟨S3200000, .i32⟩ : BufTy).Contents (Elt F) → (⟨S3200000x1, .i32⟩ : BufTy).Contents (Elt F)),
    nullary main_cst_2 (constant S_ .f32 0x3F800000#32),
    unary main_cst_2 main_v9 (broadcastInDim S3200000 ![] bcast_S_S3200000 : (⟨S_, .f32⟩ : BufTy).Contents (Elt F) → (⟨S3200000, .f32⟩ : BufTy).Contents (Elt F)),
    ternary main_v2 main_v8 main_v9 main_v10 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_c_3 (constantI S_ 32 0#32),
    nullary main_c_4 (constantI S_ 32 118#32),
    TRef.unary (.of main_c_3) main_call0.v0 id,
    TRef.unary main_call0.v0 main_call0.v1 (broadcastInDim S100000 ![] bcast_S_S100000),
    TRef.binary main_call0.v1 (.of main_arg2) main_call0.v2 maxsi,
    TRef.unary (.of main_c_4) main_call0.v3 id,
    TRef.unary main_call0.v3 main_call0.v4 (broadcastInDim S100000 ![] bcast_S_S100000),
    TRef.binary main_call0.v4 main_call0.v2 main_call0.v5 minsi,
    nullary main_c_5 (constantI S_ 32 0#32),
    unary main_c_5 main_v12 (broadcastInDim S100000 ![] bcast_S_S100000 : (⟨S_, .i32⟩ : BufTy).Contents (Elt F) → (⟨S100000, .i32⟩ : BufTy).Contents (Elt F)),
    binary main_v11 main_v12 main_v13 (cmpi .slt : (⟨S100000, .i32⟩ : BufTy).Contents (Elt F) → (⟨S100000, .i32⟩ : BufTy).Contents (Elt F) → (⟨S100000, .i1⟩ : BufTy).Contents (Elt F)),
    nullary main_c_6 (constantI S_ 32 119#32),
    unary main_c_6 main_v14 (broadcastInDim S100000 ![] bcast_S_S100000 : (⟨S_, .i32⟩ : BufTy).Contents (Elt F) → (⟨S100000, .i32⟩ : BufTy).Contents (Elt F)),
    binary main_v11 main_v14 main_v15 (addi : (⟨S100000, .i32⟩ : BufTy).Contents (Elt F) → (⟨S100000, .i32⟩ : BufTy).Contents (Elt F) → (⟨S100000, .i32⟩ : BufTy).Contents (Elt F)),
    ternary main_v13 main_v15 main_v11 main_v16 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v16 main_v17 (broadcastInDim S100000x1 ![0] bcast_S100000_S100000x1_0 : (⟨S100000, .i32⟩ : BufTy).Contents (Elt F) → (⟨S100000x1, .i32⟩ : BufTy).Contents (Elt F)),
    binary main_cst main_v17 main_v18 ((fun x i => Host.gather gather_S119_S100000x1_S100000_n_0_n_n_0_1_1 x i) : (⟨S119, .f32⟩ : BufTy).Contents (Elt F) → (⟨S100000x1, .i32⟩ : BufTy).Contents (Elt F) → (⟨S100000, .f32⟩ : BufTy).Contents (Elt F)),
    binary main_v10 main_v18 main_v19 (subf : (⟨S100000, .f32⟩ : BufTy).Contents (Elt F) → (⟨S100000, .f32⟩ : BufTy).Contents (Elt F) → (⟨S100000, .f32⟩ : BufTy).Contents (Elt F)),
    nullary main_cst_7 (constant S_ .f32 0x00000000#32),
    unary main_cst_7 main_v20 (broadcastInDim S100000 ![] bcast_S_S100000 : (⟨S_, .f32⟩ : BufTy).Contents (Elt F) → (⟨S100000, .f32⟩ : BufTy).Contents (Elt F)),
    binary main_v19 main_v20 main_v21 (maximumf : (⟨S100000, .f32⟩ : BufTy).Contents (Elt F) → (⟨S100000, .f32⟩ : BufTy).Contents (Elt F) → (⟨S100000, .f32⟩ : BufTy).Contents (Elt F)),
    nullary main_cst_8 (constant S_ .f32 0x00000000#32),
    binary main_v21 main_cst_8 main_v22 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    nullary main_cst_9 (constant S_ .f32 0x47C35000#32),
    binary main_v22 main_cst_9 main_v23 (Host.divf : (⟨S_, .f32⟩ : BufTy).Contents (Elt F) → (⟨S_, .f32⟩ : BufTy).Contents (Elt F) → (⟨S_, .f32⟩ : BufTy).Contents (Elt F)),
    nullary main_cst_10 (constant S_ .f32 0x3D4CCCCD#32),
    binary main_v23 main_cst_10 main_v24 (mulf : (⟨S_, .f32⟩ : BufTy).Contents (Elt F) → (⟨S_, .f32⟩ : BufTy).Contents (Elt F) → (⟨S_, .f32⟩ : BufTy).Contents (Elt F)),
    nullary main_cst_11 (constant S_ .f32 0x00000000#32),
    unary main_cst_11 main_v25 (broadcastInDim S100000 ![] bcast_S_S100000 : (⟨S_, .f32⟩ : BufTy).Contents (Elt F) → (⟨S100000, .f32⟩ : BufTy).Contents (Elt F)),
    binary main_v21 main_v25 main_v26 (cmpf .ogt : (⟨S100000, .f32⟩ : BufTy).Contents (Elt F) → (⟨S100000, .f32⟩ : BufTy).Contents (Elt F) → (⟨S100000, .i1⟩ : BufTy).Contents (Elt F)),
    nullary main_cst_12 (constant S_ .f32 0x3DCCCCCD#32),
    unary main_cst_12 main_v27 (broadcastInDim S100000 ![] bcast_S_S100000 : (⟨S_, .f32⟩ : BufTy).Contents (Elt F) → (⟨S100000, .f32⟩ : BufTy).Contents (Elt F)),
    binary main_v21 main_v27 main_v28 (mulf : (⟨S100000, .f32⟩ : BufTy).Contents (Elt F) → (⟨S100000, .f32⟩ : BufTy).Contents (Elt F) → (⟨S100000, .f32⟩ : BufTy).Contents (Elt F)),
    nullary main_cst_13 (constant S_ .f32 0x3F800000#32),
    unary main_cst_13 main_v29 (broadcastInDim S100000 ![] bcast_S_S100000 : (⟨S_, .f32⟩ : BufTy).Contents (Elt F) → (⟨S100000, .f32⟩ : BufTy).Contents (Elt F)),
    binary main_v29 main_v28 main_v30 (subf : (⟨S100000, .f32⟩ : BufTy).Contents (Elt F) → (⟨S100000, .f32⟩ : BufTy).Contents (Elt F) → (⟨S100000, .f32⟩ : BufTy).Contents (Elt F)),
    nullary main_cst_14 (constant S_ .f32 0x3F800000#32),
    TRef.unary (.of main_cst_14) main_call1.v0 id,
    TRef.unary main_call1.v0 main_call1.v1 (broadcastInDim S100000 ![] bcast_S_S100000),
    TRef.ternary (.of main_v26) (.of main_v30) main_call1.v1 main_call1.v2 select,
    unary main_v31 main_v32 (broadcastInDim S100000x1 ![0] bcast_S100000_S100000x1_0 : (⟨S100000, .f32⟩ : BufTy).Contents (Elt F) → (⟨S100000x1, .f32⟩ : BufTy).Contents (Elt F)),
    unary main_v32 main_v33 (broadcastInDim S100000x256 ![0, 1] bcast_S100000x1_S100000x256_0_1 : (⟨S100000x1, .f32⟩ : BufTy).Contents (Elt F) → (⟨S100000x256, .f32⟩ : BufTy).Contents (Elt F)),
    binary main_arg0 main_v33 main_v34 (mulf : (⟨S100000x256, .f32⟩ : BufTy).Contents (Elt F) → (⟨S100000x256, .f32⟩ : BufTy).Contents (Elt F) → (⟨S100000x256, .f32⟩ : BufTy).Contents (Elt F)) ]

set_option maxRecDepth 4096 in
/-- The program is that straight line: the called functions unfolded where they are called, and the sequencing
    re-associated. -/
theorem main_eq (c : Dev nD) : main (F := F) c = seq ops := by
  simp only [main, fn_clip.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., nullary_bufs_sub .., unary_bufs_sub .., ternary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., binary_bufs_sub .., nullary_bufs_sub .., binary_bufs_sub .., nullary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., unary_bufs_sub .., binary_bufs_sub ..⟩

variable [Cert.KernelIdeal.Facts]

/-- Every weakly fair execution of the reference ends with the output matrix at the rows of `h` times the atoms'
    scales spread over the columns, the loss at its value, and the three arguments as given; scale and loss are
    those of `Valence` at the bond sources re-read from the end where negative. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = mulf (m ((c.tc : Thread nD τ).loc main_arg0))
            (broadcastInDim S100000x256 ![0, 1] Facts₀.bcast_S100000x1_S100000x256_0_1
              (broadcastInDim S100000x1 ![0] Facts₀.bcast_S100000_S100000x1_0
                (rowScale (excess (F := F) (fromEnd (sources (m ((c.tc : Thread nD τ).loc main_arg1)))) (m ((c.tc : Thread nD τ).loc main_arg2))))))
      ∧ r.2.mem ((c.tc : Thread nD τ).loc main_v24)
        = loss (excess (F := F) (fromEnd (sources (m ((c.tc : Thread nD τ).loc main_arg1)))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v34).trans (by after_results_simp; rfl),
      (h c main_v24).trans (by after_results_simp; rfl),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

end Cert.ReferenceIdeal.Straight

end
-- ==== Proof.Precondition.lean ====
/-
  What the precondition says about the bond list.

  The precondition is the conjunction of two "for all" tests, each printed as an and-reduction that must come out 1:
  every feature is finite, and every bond's source index (row 0 of the bond list) is at least 0 as a signed number.
  Only the second is used: it makes re-reading negative indices from the end the identity on the sources.
-/
import proofs.«118195_j61048665145612_2_alg».proof.Pre_finite_inputs
import proofs.«118195_j61048665145612_2_alg».proof.Proof.Valence
import Idealize.ShloMosaic.Lib.ReduceAll
import Idealize.ShloMosaic.Lib.ValueIdx

noncomputable section

namespace Cert.Pre_finite_inputs.Domain

open Idealize.ShloMosaic Cert.KernelIdeal.Valence

variable {F : FTy → Type} [FloatOps F] [Cert.Pre_finite_inputs.Facts] [Cert.KernelIdeal.Facts]

/-- A scalar has one index. -/
instance scalarIdx : Subsingleton Cert.Pre_finite_inputs.S_.Idx := ⟨fun _ _ => funext fun d => d.elim0⟩

/-- Under the precondition no bond's source index is negative. -/
theorem sources_nonneg (a0 : FVec F Cert.Pre_finite_inputs.S100000x256 .f32) (a1 : IVec Cert.Pre_finite_inputs.S2x3200000 32)
    (a2 : IVec Cert.Pre_finite_inputs.S100000 32)
    (h : Cert.Pre_finite_inputs.fn (F := F) a0 a1 a2 = fun _ => 1#1) (e : Cert.KernelIdeal.S3200000.Idx) :
    0 ≤ (sources a1 e).toInt := by
  have h0 := congrFun h ValueIdx.ix0
  dsimp only [Cert.Pre_finite_inputs.fn] at h0
  obtain ⟨-, h2⟩ := IntOp.andi_eq_one.1 h0
  have h3 : IntOp.cmpi .sge (sources a1 e) 0#32 = 1#1 := Host.reduce_andi_all _ _ _ _ _ h2 e
  have h4 := IntOp.cmpi_sge.1 h3
  rw [show (0#32 : BitVec 32).toInt = 0 from by decide] at h4
  exact h4

/-- So re-reading negative indices from the end leaves the sources as they are. -/
theorem fromEnd_sources (a0 : FVec F Cert.Pre_finite_inputs.S100000x256 .f32) (a1 : IVec Cert.Pre_finite_inputs.S2x3200000 32)
    (a2 : IVec Cert.Pre_finite_inputs.S100000 32)
    (h : Cert.Pre_finite_inputs.fn (F := F) a0 a1 a2 = fun _ => 1#1) : fromEnd (sources a1) = sources a1 :=
  fromEnd_of_nonneg _ (sources_nonneg a0 a1 a2 h)

end Cert.Pre_finite_inputs.Domain

end
-- ==== Proof.lean ====
/-
  The valence constraint on a molecular graph: a kernel program against its reference, equal over the extended reals.

  Both programs take the atoms' features h (100000 x 256), the bond list (2 x 3200000; row 0 holds each bond's source
  atom) and the atoms' types.  Both count each atom's bonds, look up its allowed valence, take the excess
  max(count - allowed, 0), and return the loss mean(excess) * 0.05 together with h rescaled row by row, by
  1 - 0.1 * excess where the excess is positive and by 1 elsewhere (`Valence`).

  They differ in two places.  (1) The reference first re-reads a negative source index as counted from the end, the
  kernel program takes the index as it is (and then a negative index counts for nobody).  The precondition says
  every source index is at least 0, so the re-reading is the identity (`Precondition`) and the two bond counts, hence
  excess, loss and scales, are the same terms.  (2) The reference multiplies the whole matrix by the scales spread
  over the columns; the kernel program walks the matrix in 20 blocks of 5000 rows, multiplying each block by its
  5000 rows of the scale column (`KernelValue`).  Entry (r, c) is h(r, c) * scale(r) either way (`Bridge`).  No law
  of the extended reals is needed: the same operations meet the same operands.

  The frames of the two kernel programs are the pipeline's; the reference's is its straight-line run (`RefRun`)
  with the results dropped.  Nothing was rewritten between the kernel program and its idealization, so that claim
  is trivially true.
-/
import proofs.«118195_j61048665145612_2_alg».proof.Defs
import proofs.«118195_j61048665145612_2_alg».proof.Proof.Gen.Kernel
import proofs.«118195_j61048665145612_2_alg».proof.Proof.Gen.Kernel.Skeleton
import proofs.«118195_j61048665145612_2_alg».proof.Proof.Gen.Kernel.Launch
import proofs.«118195_j61048665145612_2_alg».proof.Proof.Gen.Kernel.Points
import proofs.«118195_j61048665145612_2_alg».proof.Proof.Gen.Kernel.Frame
import proofs.«118195_j61048665145612_2_alg».proof.Proof.Gen.KernelIdeal
import proofs.«118195_j61048665145612_2_alg».proof.Proof.Gen.KernelIdeal.Skeleton
import proofs.«118195_j61048665145612_2_alg».proof.Proof.Gen.KernelIdeal.Launch
import proofs.«118195_j61048665145612_2_alg».proof.Proof.Gen.KernelIdeal.Points
import proofs.«118195_j61048665145612_2_alg».proof.Proof.Gen.KernelIdeal.Frame
import proofs.«118195_j61048665145612_2_alg».proof.Proof.Gen.KernelIdeal.Value
import proofs.«118195_j61048665145612_2_alg».proof.Proof.Gen.ReferenceIdeal
import proofs.«118195_j61048665145612_2_alg».proof.Proof.Gen.Pre_finite_inputs
import proofs.«118195_j61048665145612_2_alg».proof.Proof.KernelValue
import proofs.«118195_j61048665145612_2_alg».proof.Proof.Bridge
import proofs.«118195_j61048665145612_2_alg».proof.Proof.RefRun
import proofs.«118195_j61048665145612_2_alg».proof.Proof.Precondition
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's straight-line run, with the two results dropped. -/
theorem frame_reference : Cert.frame_ReferenceIdeal := fun m ρ _ =>
  (θ_run Cert.ReferenceIdeal.defs _ _).mono (fun _ h c => (h c).2.2) (Cert.ReferenceIdeal.Straight.run (F := Ideal) m ρ)

/-- The idealization rewrote no operation. -/
theorem preserves : Cert.preserves_Kernel_KernelIdeal := trivial

/-- From memories agreeing on the arguments both programs end with the rescaled features and the loss of `Valence`:
    the kernel program's at the sources as given, the reference's at the sources re-read from the end, which under
    the precondition are the sources as given; and rows times the scale column is the matrix times the spread scales. -/
theorem algebraic : Cert.algebraic_KernelIdeal_ReferenceIdeal := by
  intro m ρ m' ρ' hpre hagree
  refine ⟨_, _, Cert.KernelIdeal.Scaled.run (F := Ideal) m ρ, ?_⟩
  refine (θ_run Cert.ReferenceIdeal.defs _ _).mono (fun _ h c => ⟨(h c).1.trans ?_, (h c).2.1.trans ?_, (h c).2.2⟩)
    (Cert.ReferenceIdeal.Straight.run (F := Ideal) m' ρ')
  · rw [(hagree c).1, (hagree c).2.1, (hagree c).2.2, Cert.Pre_finite_inputs.Domain.fromEnd_sources _ _ _ (hpre c)]
    exact (Cert.KernelIdeal.Scaled.rowsTimes_column _ _ _ _ _).symm
  · rw [(hagree c).2.1, (hagree c).2.2, Cert.Pre_finite_inputs.Domain.fromEnd_sources _ _ _ (hpre c)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
